-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000x128 : Shape := ⟨2, ![10000, 128]⟩
abbrev S800000x128 : Shape := ⟨2, ![800000, 128]⟩
abbrev S1x128 : Shape := ⟨2, ![1, 128]⟩

abbrev nBuf : Space → Nat
  | .hbm => 64
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S128x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .i1⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000, .f32⟩
  | .hbm, ⟨63, _⟩ => ⟨S800000, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_call2_v0 : Ref sig .tc := ⟨.hbm, 42, rfl⟩
abbrev main_call2_v1 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_c_14 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_15 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.GcnSpec.lean ====
/-
  The two programs as whole-array terms at the ideal instance, over one shared vocabulary.

  A graph-convolution layer on N = 50000 nodes with C = 128 features and E = 800000 edges (row e, col e):
    deg n   = number of edges e with row e = n                      (a scatter-add of ones)
    dis n   = deg n ^ (-1/2) where deg n > 0, else 0
    norm e  = dis (row e) * dis (col e)                              (row / col wrapped when negative, then clamped by the gather)
    agg t   = for each node n and feature c:  sum over the edges e with row e = n of  t (col e, c) * norm e
  The kernel projects first and aggregates after:   out = agg (x · Wᵀ) + b.
  The reference aggregates first and projects after: out = (agg x) · Wᵀ + b.
  Everything up to `agg` is the same text in both programs, so it is written once here; the two result
  terms differ only in where the product with Wᵀ stands.
-/
import Idealize.ShloMosaic.PureOps
import Idealize.ShloMosaic.PureOps.Ideal

noncomputable section

namespace Cert.GcnSpec

open Idealize.ShloMosaic

abbrev SNC : Shape := ⟨2, ![50000, 128]⟩
abbrev SI : Shape := ⟨2, ![2, 800000]⟩
abbrev SCC : Shape := ⟨2, ![128, 128]⟩
abbrev SC : Shape := ⟨1, ![128]⟩
abbrev S1E : Shape := ⟨2, ![1, 800000]⟩
abbrev SE : Shape := ⟨1, ![800000]⟩
abbrev S0 : Shape := ⟨0, ![]⟩
abbrev SN : Shape := ⟨1, ![50000]⟩
abbrev SE1 : Shape := ⟨2, ![800000, 1]⟩
abbrev SEC : Shape := ⟨2, ![800000, 128]⟩
abbrev S1C : Shape := ⟨2, ![1, 128]⟩

/-! ## The shape relations the operations ask for -/

theorem slices_row : SI.Slices ![0, 0] S1E := by decide
theorem slices_col : SI.Slices ![1, 0] S1E := by decide
theorem casts_1E_E : S1E.ShapeCasts SE := by decide
theorem bc_0_E : S0.BroadcastsInDim SE (![] : Fin 0 → Fin SE.rank) := by decide
theorem bc_0_N : S0.BroadcastsInDim SN (![] : Fin 0 → Fin SN.rank) := by decide
theorem bc_0_NC : S0.BroadcastsInDim SNC (![] : Fin 0 → Fin SNC.rank) := by decide
theorem bc_E_E1 : SE.BroadcastsInDim SE1 (![0] : Fin 1 → Fin SE1.rank) := by decide
theorem bc_E1_EC : SE1.BroadcastsInDim SEC (![0, 1] : Fin 2 → Fin SEC.rank) := by decide
theorem bc_C_1C : SC.BroadcastsInDim S1C (![1] : Fin 1 → Fin S1C.rank) := by decide
theorem bc_1C_NC : S1C.BroadcastsInDim SNC (![0, 1] : Fin 2 → Fin SNC.rank) := by decide
theorem transposes_CC : SCC.Transposes [1, 0] SCC := by decide

/-- The degree count's scatter: one scalar update per edge, added at the node the edge's index names. -/
def scVec : ScatterDims SN SE1 SE where
  updateWindowDims := []
  insertedWindowDims := [0]
  scatterDimsToOperandDims := [0]
  indexVectorDim := 1
/-- A per-node scalar read at each edge's node. -/
def gaVec : GatherDims SN SE1 SE where
  offsetDims := []
  collapsedSliceDims := [0]
  operandBatchingDims := []
  startIndicesBatchingDims := []
  startIndexMap := [0]
  indexVectorDim := 1
  sliceSizes := ![1]
/-- A node's whole feature row read at each edge's node. -/
def gaRow : GatherDims SNC SE1 SEC where
  offsetDims := [1]
  collapsedSliceDims := [0]
  operandBatchingDims := []
  startIndicesBatchingDims := []
  startIndexMap := [0]
  indexVectorDim := 1
  sliceSizes := ![1, 128]
/-- The aggregation's scatter: one feature row per edge, added at the node the edge's index names. -/
def scRow : ScatterDims SNC SE1 SEC where
  updateWindowDims := [1]
  insertedWindowDims := [0]
  scatterDimsToOperandDims := [0]
  indexVectorDim := 1
/-- The reference's projection: [N, C] by [C, C], contracting the first operand's axis 1 with the second's axis 0. -/
def dotNC : DotDims SNC SCC SNC where
  lhsContracting := [1]
  rhsContracting := [0]
  lhsNonContracting := [0]
  rhsNonContracting := [1]
  lhsBatch := []
  rhsBatch := []

/-! ## The shared chain -/

/-- The edges' target nodes: row 0 of the edge list. -/
def rowV (a1 : IVec SI 32) : IVec SE 32 := shapeCast SE (extractStridedSlice S1E ![0, 0] a1 slices_row) casts_1E_E
/-- The edges' source nodes: row 1 of the edge list. -/
def colV (a1 : IVec SI 32) : IVec SE 32 := shapeCast SE (extractStridedSlice S1E ![1, 0] a1 slices_col) casts_1E_E
/-- An index vector as the column of start indices a gather or scatter reads. -/
def col1 (v : IVec SE 32) : IVec SE1 32 := broadcastInDim SE1 ![0] bc_E_E1 v
/-- A negative index counts from the end: N is added to it. -/
def wrap (v : IVec SE 32) : IVec SE 32 :=
  select (cmpi .slt v (broadcastInDim SE ![] bc_0_E (constantI S0 32 0#32)))
    (addi v (broadcastInDim SE ![] bc_0_E (constantI S0 32 50000#32))) v

/-- The all-zero [N] vector. -/
def zeroN : FVec Ideal SN .f32 := broadcastInDim SN ![] bc_0_N (constant S0 .f32 0x00000000#32)
/-- The all-zero [N, C] array. -/
def zeroNC : FVec Ideal SNC .f32 := broadcastInDim SNC ![] bc_0_NC (constant S0 .f32 0x00000000#32)

/-- deg n: the number of edges whose target is n. -/
def deg (a1 : IVec SI 32) : FVec Ideal SN .f32 :=
  Host.scatterAdd scVec zeroN (col1 (rowV a1)) (broadcastInDim SE ![] bc_0_E (constant S0 .f32 0x3F800000#32))
/-- dis n: deg n to the power −1/2 where deg n > 0, else 0. -/
def dis (a1 : IVec SI 32) : FVec Ideal SN .f32 :=
  select (cmpf .ogt (deg a1) zeroN)
    (Host.powf (deg a1) (broadcastInDim SN ![] bc_0_N (constant S0 .f32 0xBF000000#32)))
    (broadcastInDim SN ![] bc_0_N (constant S0 .f32 0x00000000#32))
/-- norm e = dis (row e) · dis (col e). -/
def norm (a1 : IVec SI 32) : FVec Ideal SE .f32 :=
  mulf (Host.gather gaVec (dis a1) (col1 (wrap (rowV a1)))) (Host.gather gaVec (dis a1) (col1 (wrap (colV a1))))
/-- norm e repeated along the feature axis. -/
def normB (a1 : IVec SI 32) : FVec Ideal SEC .f32 :=
  broadcastInDim SEC ![0, 1] bc_E1_EC (broadcastInDim SE1 ![0] bc_E_E1 (norm a1))
/-- The bias repeated along the node axis. -/
def biasB (a3 : FVec Ideal SC .f32) : FVec Ideal SNC .f32 :=
  broadcastInDim SNC ![0, 1] bc_1C_NC (broadcastInDim S1C ![1] bc_C_1C a3)
/-- Wᵀ. -/
def Wt (a2 : FVec Ideal SCC .f32) : FVec Ideal SCC .f32 := transpose SCC [1, 0] a2 transposes_CC

/-- agg t (n, c) = Σ over the edges e with row e = n of t (col e, c) · norm e. -/
def agg (t : FVec Ideal SNC .f32) (a1 : IVec SI 32) : FVec Ideal SNC .f32 :=
  Host.scatterAdd scRow zeroNC (col1 (rowV a1)) (mulf (Host.gather gaRow t (col1 (wrap (colV a1)))) (normB a1))

/-- The kernel's result from the projected features xw = x · Wᵀ. -/
def kernelRes (xw : FVec Ideal SNC .f32) (a1 : IVec SI 32) (a3 : FVec Ideal SC .f32) : FVec Ideal SNC .f32 :=
  addf (agg xw a1) (biasB a3)

/-- The reference's result. -/
def refRes (a0 : FVec Ideal SNC .f32) (a1 : IVec SI 32) (a2 : FVec Ideal SCC .f32) (a3 : FVec Ideal SC .f32) :
    FVec Ideal SNC .f32 :=
  addf (Host.dotGeneral dotNC none (agg a0 a1) (Wt a2)) (biasB a3)

end Cert.GcnSpec

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«158638_j39908836115041_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KernelArray.lean ====
/-
  The array the kernel's one region leaves: the projected features.

  The region runs over 5 grid points; point t loads rows 10000·t … 10000·t + 9999 of x (all 128 columns) and the
  whole 128×128 matrix the host transposed before the region (Wᵀ), multiplies them into a zero accumulator, and
  stores the 10000×128 product, which is written back as rows 10000·t … of the output. At the ideal instance the
  change of float format before the product is the identity and the product into zero is the plain sum over the
  128 contracted positions, so the block written at point t is the block of ONE whole-array function,
      proj x w (r, c) = Σ_k x (r, k) · w (k, c),
  and since the 5 blocks tile the 50000 rows the output array ends holding proj x Wᵀ.
-/
import proofs.«158638_j39908836115041_2_alg».proof.Proof.Gen.KernelIdeal.Frame
import proofs.«158638_j39908836115041_2_alg».proof.Proof.GcnSpec
import proofs.«158638_j39908836115041_2_alg».proof.Proof.LibPlainMatmul
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Projected

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The projection as one whole-array function: entry (r, c) is Σ_k x (r, k) · w (k, c). -/
def proj (x : FVec Ideal Cert.GcnSpec.SNC .f32) (w : FVec Ideal Cert.GcnSpec.SCC .f32) : FVec Ideal Cert.GcnSpec.SNC .f32 :=
  fun i => ∑ k : Fin 128, x (ix2 (⟨(i 0).val, idx2_lt0 i⟩ : Fin 50000) k) * w (ix2 k (⟨(i 1).val, idx2_lt1 i⟩ : Fin 128))

theorem proj_apply (x : FVec Ideal Cert.GcnSpec.SNC .f32) (w : FVec Ideal Cert.GcnSpec.SCC .f32) (r : Fin 50000) (c : Fin 128) :
    proj x w (ix2 r c) = ∑ k : Fin 128, x (ix2 r k) * w (ix2 k c) := rfl

theorem hz : (![0, 0] : Fin 2 → Nat) = fun _ => 0 := funext fun a => by fin_cases a <;> rfl

/-- The body's payload at (p, q): the formats' changes are the identity, the shape cast is to the same shape, and the
    product into the zero accumulator is the sum over the contracted axis. -/
theorem pay_apply (x0 : Vec Ideal S10000x128 .f32) (x1 : Vec Ideal S128x128 .f32) (p : Fin 10000) (q : Fin 128) :
    k0_pay1 x0 x1 (ix2 p q) = ∑ l : Fin 128, x0 (ix2 p l) * x1 (ix2 l q) := by
  unfold k0_pay1
  refine (PlainMatmul.plain_matmul_zero_apply 10000 128 128 none
    (truncf .bf16 x0 bitsLt_bf16_f32) (truncf .bf16 (shapeCast S128x128 x1 shapeCasts_S128x128_S128x128) bitsLt_bf16_f32) p q).trans ?_
  refine Finset.sum_congr rfl fun l _ => ?_
  show x0 (ix2 p l) * shapeCast S128x128 x1 shapeCasts_S128x128_S128x128 (ix2 l q) = _
  rw [shapeCast_self]

/-- Two products of array entries agree when they read the same entries. -/
theorem mul_reads_congr (X : S50000x128.Idx → EReal) (Y : S128x128.Idx → EReal) (i i' : S50000x128.Idx) (j j' : S128x128.Idx)
    (hi : i = i') (hj : j = j') : X i * Y j = X i' * Y j' := by rw [hi, hj]

variable (m : (ℓ : Loc nD τ sig) → Buf (Elt Ideal) ℓ) (ρ : Dev nD → PrngReg)

/-- The printed index maps over the grid: the x block moves with the output block along the rows, every other block
    index is 0, and the output's row-block index stays below 5. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

set_option maxHeartbeats 2000000 in
/-- What point t writes back is block t of proj of the arrays the region finds. -/
theorem flushed_eq (c : Dev nD) (t : Fin cfg0.N) :
    (dats m 0 c).flushed 2 t = ((cfg0.win 2).blk t).view.read (Elt Ideal) (proj (V m c main_arg0) (V m c main_v28)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  have hp : p.val < 10000 := p.isLt
  have hrow : win0_2.index t (0 : Fin 2) * 10000 + p.val < 50000 := by omega
  -- where the block's element (p, q) sits in the output array: row 10000·(block index) + p, column q
  have hemb : ((cfg0.win 2).blk t).view.emb (ix2 p q)
      = ix2 (⟨win0_2.index t (0 : Fin 2) * 10000 + p.val, hrow⟩ : Fin 50000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; omega
  show (k0_pay1 (iblk m c 0 t) (iblk m c 1 t) (ix2 p q) : EReal)
    = proj (V m c main_arg0) (V m c main_v28) (((cfg0.win 2).blk t).view.emb (ix2 p q))
  rw [hemb, proj_apply]
  refine (pay_apply (iblk m c 0 t) (iblk m c 1 t) p q).trans ?_
  refine Finset.sum_congr rfl fun l _ => ?_
  -- the x block's element (p, l) is row 10000·(block index) + p, column l; the matrix block is the whole matrix
  have h0 : ((cfg0.win 0).blk t).view.emb (ix2 p l)
      = ix2 (⟨win0_2.index t (0 : Fin 2) * 10000 + p.val, hrow⟩ : Fin 50000) l := by
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 128 + 1 * l.val = l.val; omega
  have h1 : ((cfg0.win 1).blk t).view.emb (ix2 l q) = ix2 l q := by
    funext a; apply Fin.ext
    match a with
    | ⟨0, _⟩ => show win0_1.index t (0 : Fin 2) * 128 + 1 * l.val = l.val; omega
    | ⟨1, _⟩ => show win0_1.index t (1 : Fin 2) * 128 + 1 * q.val = q.val; omega
  exact mul_reads_congr (V m c main_arg0) (V m c main_v28) _ _ _ _ h0 h1

/-- An index of the output array is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- The blocks tile the array: row r is in the block of the point whose row-block index is r / 10000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the run is proj of the arrays the region finds. -/
theorem final (c : Dev nD) : (dats m 0 c).arrAt 2 cfg0.N = proj (V m c main_arg0) (V m c main_v28) :=
  (dats m 0 c).arrAt_eq_of_cover 2 _ (fun t _ => flushed_eq m c t) cover

end Cert.KernelIdeal.Projected

end
-- ==== Proof.KernelTail.lean ====
/-
  The kernel's whole run, read as a value.

  Before the region the host computes, from the edge list alone, the target and source node of every edge and the
  edge weights norm e = dis (row e) · dis (col e), and transposes W. The region leaves the projected features
  proj x Wᵀ. After the region the host reads, at each edge, the projected row of the edge's source node, scales it
  by the edge's weight, adds it into the row of the edge's target node, and finally adds the bias. So the result
  is the specification's `kernelRes` of proj x Wᵀ.
-/
import proofs.«158638_j39908836115041_2_alg».proof.Proof.KernelArray

set_option maxRecDepth 65536

noncomputable section

namespace Cert.KernelIdeal.Projected

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)
open Cert.GcnSpec (SNC SI SCC SC SE)

/-- The host lines after the region as one function of what they read: the projected features, the edges' target and
    source nodes, the edge weights and the bias. -/
def tailFn (xw : FVec Ideal SNC .f32) (row col : IVec SE 32) (nrm : FVec Ideal SE .f32) (b : FVec Ideal SC .f32) :
    FVec Ideal SNC .f32 :=
  addf (Host.scatterAdd Cert.GcnSpec.scRow Cert.GcnSpec.zeroNC (Cert.GcnSpec.col1 row)
      (mulf (Host.gather Cert.GcnSpec.gaRow xw (Cert.GcnSpec.col1 (Cert.GcnSpec.wrap col)))
        (broadcastInDim Cert.GcnSpec.SEC ![0, 1] Cert.GcnSpec.bc_E1_EC (broadcastInDim Cert.GcnSpec.SE1 ![0] Cert.GcnSpec.bc_E_E1 nrm))))
    (Cert.GcnSpec.biasB b)

/-- At the edge data computed from the edge list it is the specification's kernel result. -/
theorem tailFn_spec (xw : FVec Ideal SNC .f32) (a1 : IVec SI 32) (b : FVec Ideal SC .f32) :
    tailFn xw (Cert.GcnSpec.rowV a1) (Cert.GcnSpec.colV a1) (Cert.GcnSpec.norm a1) b = Cert.GcnSpec.kernelRes xw a1 b := rfl

set_option maxHeartbeats 4000000 in
/-- The lines after the region, run from ANY contents of the buffers: the result buffer ends at `tailFn` of the five
    buffers they read. -/
theorem tail_of_vals (W : Valuation τ sig (Elt Ideal)) (xw : FVec Ideal SNC .f32) (row col : IVec SE 32)
    (nrm : FVec Ideal SE .f32) (b : FVec Ideal SC .f32)
    (h29 : W (Proc.devRef .tc main_v29) = xw) (h1 : W (Proc.devRef .tc main_v1) = row) (h3 : W (Proc.devRef .tc main_v3) = col)
    (h27 : W (Proc.devRef .tc main_v27) = nrm) (hb : W (Proc.devRef .tc main_arg3) = b) :
    StableHlo.after (hostOps1 (F := Ideal)) W (Proc.devRef .tc main_v45) = tailFn xw row col nrm b := by
  subst h29 h1 h3 h27 hb
  after_results_simp
  unfold tailFn Cert.GcnSpec.zeroNC Cert.GcnSpec.biasB Cert.GcnSpec.col1 Cert.GcnSpec.wrap
  rw [show scatter_S50000x128_S800000x1_S800000x128_1_0_0_1 = Cert.GcnSpec.scRow from rfl,
    show gather_S50000x128_S800000x1_S800000x128_1_0_n_n_0_1_1128 = Cert.GcnSpec.gaRow from rfl]
  all_goals rfl

/-- The operations of the kernel's `where` (choose deg ^ (−1/2) where deg > 0, else 0), spelt over the call's buffers. -/
theorem where_plain : (hostOps0_1 : List (HloOp τ sig (Elt Ideal)))
    = [ StableHlo.unary main_cst_3 main_call0_v0 (id : (⟨S_, .f32⟩ : BufTy).Contents (Elt Ideal) → (⟨S_, .f32⟩ : BufTy).Contents (Elt Ideal)),
        StableHlo.unary main_call0_v0 main_call0_v1 (broadcastInDim S50000 ![] bcast_S_S50000 : (⟨S_, .f32⟩ : BufTy).Contents (Elt Ideal) → (⟨S50000, .f32⟩ : BufTy).Contents (Elt Ideal)),
        StableHlo.ternary main_v9 main_v11 main_call0_v1 main_v12 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

variable (m : (ℓ : Loc nD τ sig) → Buf (Elt Ideal) ℓ) (ρ : Dev nD → PrngReg)

/-! ## What the host lines before the region leave -/

theorem entry_v28 (c : Dev nD) :
    (V m c main_v28 : S128x128.Idx → EReal) = Cert.GcnSpec.Wt (m ((c : Thread nD τ).loc main_arg2)) := by
  dsimp only [V, V0]
  simp only [hostOps0, hostOps0_1, hostOps0_2, List.flatten_cons, List.flatten_nil, List.append_nil, List.cons_append, List.nil_append]
  after_results_simp
  try simp only [id_eq]
  unfold Cert.GcnSpec.Wt
  rfl

theorem entry_v1 (c : Dev nD) :
    (V m c main_v1 : S800000.Idx → BitVec 32) = Cert.GcnSpec.rowV (m ((c : Thread nD τ).loc main_arg1)) := by
  dsimp only [V, V0]
  simp only [hostOps0, hostOps0_1, hostOps0_2, List.flatten_cons, List.flatten_nil, List.append_nil, List.cons_append, List.nil_append]
  after_results_simp
  try simp only [id_eq]
  unfold Cert.GcnSpec.rowV
  rfl

theorem entry_v3 (c : Dev nD) :
    (V m c main_v3 : S800000.Idx → BitVec 32) = Cert.GcnSpec.colV (m ((c : Thread nD τ).loc main_arg1)) := by
  dsimp only [V, V0]
  simp only [hostOps0, hostOps0_1, hostOps0_2, List.flatten_cons, List.flatten_nil, List.append_nil, List.cons_append, List.nil_append]
  after_results_simp
  try simp only [id_eq]
  unfold Cert.GcnSpec.colV
  rfl

theorem entry_v27 (c : Dev nD) :
    (V m c main_v27 : S800000.Idx → EReal) = Cert.GcnSpec.norm (m ((c : Thread nD τ).loc main_arg1)) := by
  dsimp only [V, V0]
  rw [where_plain]
  simp only [hostOps0, hostOps0_1, hostOps0_2, List.flatten_cons, List.flatten_nil, List.append_nil, List.cons_append, List.nil_append]
  after_results_simp
  try simp only [id_eq]
  unfold Cert.GcnSpec.norm Cert.GcnSpec.dis Cert.GcnSpec.deg Cert.GcnSpec.zeroN Cert.GcnSpec.col1 Cert.GcnSpec.wrap Cert.GcnSpec.rowV Cert.GcnSpec.colV
  rw [show scatter_S50000_S800000x1_S800000_n_0_0_1 = Cert.GcnSpec.scVec from rfl,
    show gather_S50000_S800000x1_S800000_n_0_n_n_0_1_1 = Cert.GcnSpec.gaVec from rfl]
  all_goals rfl

/-! ## The result -/

/-- The result buffer after the whole run. -/
theorem tail_eq (c : Dev nD) :
    Pipeline.afterTail₀ cfgs (dats m) 0 (V0 m) [hostOps1] c main_v45
      = Cert.GcnSpec.kernelRes (proj (m ((c : Thread nD τ).loc main_arg0)) (Cert.GcnSpec.Wt (m ((c : Thread nD τ).loc main_arg2))))
          (m ((c : Thread nD τ).loc main_arg1)) (m ((c : Thread nD τ).loc main_arg3)) := by
  unfold Pipeline.afterTail₀
  rw [← tailFn_spec]
  show StableHlo.after hostOps1 _ (Proc.devRef .tc main_v45) = _
  refine tail_of_vals _ _ _ _ _ _ ?_ ?_ ?_ ?_ ?_
  · refine (Pipeline.withArrays_arr spec0 launch0.win.arr_inj c _ _ 2).trans ?_
    rw [final m c, V_main_arg0, entry_v28]
  · exact (Pipeline.withArrays_of_ne _ c (V0 m c) _ main_v1 (by decide)).trans (entry_v1 m c)
  · exact (Pipeline.withArrays_of_ne _ c (V0 m c) _ main_v3 (by decide)).trans (entry_v3 m c)
  · exact (Pipeline.withArrays_of_ne _ c (V0 m c) _ main_v27 (by decide)).trans (entry_v27 m c)
  · exact (Pipeline.withArrays_of_ne _ c (V0 m c) _ main_arg3 (by decide)).trans (V_main_arg3 m c)

/-- THE KERNEL'S RUN at the ideal instance: every weakly fair execution terminates with the result at the
    specification's kernel result of proj x Wᵀ, the arguments unchanged. -/
theorem run : θ_run defs (onTc (τ := τ) (main (F := Ideal))) ⟨m, fun _ => 0, ρ⟩ fun r => ∀ c : Dev nD,
      r.2.mem ((c.tc : Thread nD τ).loc main_v45)
        = Cert.GcnSpec.kernelRes (proj (m ((c : Thread nD τ).loc main_arg0)) (Cert.GcnSpec.Wt (m ((c : Thread nD τ).loc main_arg2))))
            (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v45 (Pipeline.mem_restRefs_of main_v45 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Projected

end
-- ==== Proof.RefOps.lean ====
/-
  The reference program's @main as a list: a straight line of host operations (a called function's operations stand
  in its call's place), which touch only buffers of the TensorCore and none that is scoped.
-/
import proofs.«158638_j39908836115041_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations, in order; a called function's operations stand in its call's place, written over the call's own buffers. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    unary main_cst_3 main_v13 (broadcastInDim S50000 ![] bcast_S_S50000 : (⟨S_, .f32⟩ : BufTy).Contents (Elt F) → (⟨S50000, .f32⟩ : BufTy).Contents (Elt F)),
    binary main_v7 main_v13 main_v14 (cmpf .ogt : (⟨S50000, .f32⟩ : BufTy).Contents (Elt F) → (⟨S50000, .f32⟩ : BufTy).Contents (Elt F) → (⟨S50000, .i1⟩ : BufTy).Contents (Elt F)),
    nullary main_cst_4 (constant S_ .f32 0x3F800000#32),
    nullary main_cst_5 (constant S_ .f32 0x00000000#32),
    unary main_cst_4 main_call0_v0 (broadcastInDim S50000 ![] bcast_S_S50000 : (⟨S_, .f32⟩ : BufTy).Contents (Elt F) → (⟨S50000, .f32⟩ : BufTy).Contents (Elt F)),
    unary main_cst_5 main_call0_v1 (broadcastInDim S50000 ![] bcast_S_S50000 : (⟨S_, .f32⟩ : BufTy).Contents (Elt F) → (⟨S50000, .f32⟩ : BufTy).Contents (Elt F)),
    ternary main_v14 main_call0_v0 main_call0_v1 main_v15 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    unary main_v15 main_v16 (id : (⟨S50000, .f32⟩ : BufTy).Contents (Elt F) → (⟨S50000, .f32⟩ : BufTy).Contents (Elt F)),
    binary main_v12 main_v16 main_v17 (mulf : (⟨S50000, .f32⟩ : BufTy).Contents (Elt F) → (⟨S50000, .f32⟩ : BufTy).Contents (Elt F) → (⟨S50000, .f32⟩ : BufTy).Contents (Elt F)),
    nullary main_cst_6 (constant S_ .f32 0x00000000#32),
    unary main_cst_6 main_call1_v0 (id : (⟨S_, .f32⟩ : BufTy).Contents (Elt F) → (⟨S_, .f32⟩ : BufTy).Contents (Elt F)),
    unary main_call1_v0 main_call1_v1 (broadcastInDim S50000 ![] bcast_S_S50000 : (⟨S_, .f32⟩ : BufTy).Contents (Elt F) → (⟨S50000, .f32⟩ : BufTy).Contents (Elt F)),
    ternary main_v9 main_v17 main_call1_v1 main_v18 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_cst_7 (constant S_ .f32 0x00000000#32),
    unary main_cst_7 main_v19 (broadcastInDim S50000 ![] bcast_S_S50000 : (⟨S_, .f32⟩ : BufTy).Contents (Elt F) → (⟨S50000, .f32⟩ : BufTy).Contents (Elt F)),
    binary main_v7 main_v19 main_v20 (cmpf .ogt : (⟨S50000, .f32⟩ : BufTy).Contents (Elt F) → (⟨S50000, .f32⟩ : BufTy).Contents (Elt F) → (⟨S50000, .i1⟩ : BufTy).Contents (Elt F)),
    nullary main_cst_8 (constant S_ .f32 0xBF000000#32),
    unary main_cst_8 main_v21 (broadcastInDim S50000 ![] bcast_S_S50000 : (⟨S_, .f32⟩ : BufTy).Contents (Elt F) → (⟨S50000, .f32⟩ : BufTy).Contents (Elt F)),
    binary main_v7 main_v21 main_v22 (Host.powf : (⟨S50000, .f32⟩ : BufTy).Contents (Elt F) → (⟨S50000, .f32⟩ : BufTy).Contents (Elt F) → (⟨S50000, .f32⟩ : BufTy).Contents (Elt F)),
    nullary main_cst_9 (constant S_ .f32 0x00000000#32),
    unary main_cst_9 main_call2_v0 (id : (⟨S_, .f32⟩ : BufTy).Contents (Elt F) → (⟨S_, .f32⟩ : BufTy).Contents (Elt F)),
    unary main_call2_v0 main_call2_v1 (broadcastInDim S50000 ![] bcast_S_S50000 : (⟨S_, .f32⟩ : BufTy).Contents (Elt F) → (⟨S50000, .f32⟩ : BufTy).Contents (Elt F)),
    ternary main_v20 main_v22 main_call2_v1 main_v23 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v24 (broadcastInDim S800000 ![] bcast_S_S800000 : (⟨S_, .i32⟩ : BufTy).Contents (Elt F) → (⟨S800000, .i32⟩ : BufTy).Contents (Elt F)),
    binary main_v1 main_v24 main_v25 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v26 (broadcastInDim S800000 ![] bcast_S_S800000 : (⟨S_, .i32⟩ : BufTy).Contents (Elt F) → (⟨S800000, .i32⟩ : BufTy).Contents (Elt F)),
    binary main_v1 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v23 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_11 (constantI S_ 32 0#32),
    unary main_c_11 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v23 main_v36 main_v37 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v30 main_v37 main_v38 (mulf : (⟨S800000, .f32⟩ : BufTy).Contents (Elt F) → (⟨S800000, .f32⟩ : BufTy).Contents (Elt F) → (⟨S800000, .f32⟩ : BufTy).Contents (Elt F)),
    nullary main_c_13 (constantI S_ 32 0#32),
    unary main_c_13 main_v39 (broadcastInDim S800000 ![] bcast_S_S800000 : (⟨S_, .i32⟩ : BufTy).Contents (Elt F) → (⟨S800000, .i32⟩ : BufTy).Contents (Elt F)),
    binary main_v3 main_v39 main_v40 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v41 (broadcastInDim S800000 ![] bcast_S_S800000 : (⟨S_, .i32⟩ : BufTy).Contents (Elt F) → (⟨S800000, .i32⟩ : BufTy).Contents (Elt F)),
    binary main_v3 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_v3 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_arg0 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v38 main_v46 (broadcastInDim S800000x1 ![0] bcast_S800000_S800000x1_0 : (⟨S800000, .f32⟩ : BufTy).Contents (Elt F) → (⟨S800000x1, .f32⟩ : BufTy).Contents (Elt F)),
    unary main_v46 main_v47 (broadcastInDim S800000x128 ![0, 1] bcast_S800000x1_S800000x128_0_1 : (⟨S800000x1, .f32⟩ : BufTy).Contents (Elt F) → (⟨S800000x128, .f32⟩ : BufTy).Contents (Elt F)),
    binary main_v45 main_v47 main_v48 (mulf : (⟨S800000x128, .f32⟩ : BufTy).Contents (Elt F) → (⟨S800000x128, .f32⟩ : BufTy).Contents (Elt F) → (⟨S800000x128, .f32⟩ : BufTy).Contents (Elt F)),
    nullary main_cst_15 (constant S_ .f32 0x00000000#32),
    unary main_cst_15 main_v49 (broadcastInDim S50000x128 ![] bcast_S_S50000x128 : (⟨S_, .f32⟩ : BufTy).Contents (Elt F) → (⟨S50000x128, .f32⟩ : BufTy).Contents (Elt F)),
    unary main_v1 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg2 main_v52 ((transpose S128x128 [1, 0] · transposes_S128x128_S128x128_1_0) : (⟨S128x128, .f32⟩ : BufTy).Contents (Elt F) → (⟨S128x128, .f32⟩ : BufTy).Contents (Elt F)),
    binary main_v51 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub ..⟩

end Cert.ReferenceIdeal.RefValue

end
-- ==== Proof.RefRun.lean ====
/-
  The reference program's run, read back: its @main is a straight line of host operations, so every weakly fair
  execution ends with the result buffer at the operations' composed term of the argument arrays, which is the
  specification's `refRes` (aggregate the features over the edges, then project by Wᵀ, then add the bias), and
  with the arguments unchanged.
-/
import proofs.«158638_j39908836115041_2_alg».proof.Proof.RefOps
import proofs.«158638_j39908836115041_2_alg».proof.Proof.GcnSpec

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 65536 in
set_option maxHeartbeats 32400000 in
/-- At the ideal instance, from any memory with zero counters: every weakly fair execution of @main terminates
    with the result at `refRes` of the argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = Cert.GcnSpec.refRes (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v56).trans (by
      after_results_simp
      simp only [id_eq]
      unfold Cert.GcnSpec.refRes Cert.GcnSpec.agg Cert.GcnSpec.normB Cert.GcnSpec.norm Cert.GcnSpec.dis Cert.GcnSpec.deg Cert.GcnSpec.zeroN Cert.GcnSpec.zeroNC Cert.GcnSpec.biasB Cert.GcnSpec.Wt Cert.GcnSpec.col1 Cert.GcnSpec.wrap Cert.GcnSpec.rowV Cert.GcnSpec.colV
      rw [show scatter_S50000x128_S800000x1_S800000x128_1_0_0_1 = Cert.GcnSpec.scRow from rfl,
        show scatter_S50000_S800000x1_S800000_n_0_0_1 = Cert.GcnSpec.scVec from rfl,
        show gather_S50000x128_S800000x1_S800000x128_1_0_n_n_0_1_1128 = Cert.GcnSpec.gaRow from rfl,
        show gather_S50000_S800000x1_S800000_n_0_n_n_0_1_1 = Cert.GcnSpec.gaVec from rfl,
        show dot_S50000x128_S128x128_S50000x128_1_0_0_1_n_n = Cert.GcnSpec.dotNC from rfl]
      all_goals rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.LibRowGatherScatter.lean ====
/-
  Reading, at an index, the two indexed operations a segment sum is built from: the row gather `x[col]` (an operand
  `[N, C]` or `[N]` read at a column `[E, 1]` of start indices) and the accumulating row scatter
  `segment_sum(msgs, row)` (updates `[E, C]` added into an operand `[N, C]` at a column `[E, 1]` of row indices).
  The gather clamps its start index into `[0, N − 1]`; the scatter reads it signed and drops a row that is out of range.
  Every statement is for arbitrary dimension numbers whose lists are the ones those two operations carry.
-/
import Idealize.ShloMosaic.Lib.ValueIdx
import Idealize.ShloMosaic.PureOps.Ideal.Laws

noncomputable section

open scoped BigOperators

namespace Idealize.ShloMosaic.RowGatherScatter

open Idealize.ShloMosaic Idealize.ShloMosaic.ValueIdx

/-! ## The row gather at an index -/

section Gather
variable {α : Type}

/-- THE ROW GATHER READ AT `(e, c)`: gathering whole rows of an `[N, C]` operand at a column `[E, 1]` of start
    indices gives, at row `e` and column `c`, the operand's element in column `c` of the row named by start index
    `e`, that index read as a signed integer and clamped into `[0, N − 1]`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, not batching, named by the start index map
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[1], [0], [], [], [0], 1, ![1, C], wf⟩ :
        GatherDims ⟨2, ![N, C]⟩ ⟨2, ![E, 1]⟩ ⟨2, ![E, C]⟩) (ix2 e c) ⟨p, hp⟩ = ix2 e 0 := by
      intro p hp
      obtain rfl : p = 0 := by omega
      funext b; refine Fin.ext ?_
      match b with
      | ⟨0, _⟩ => rfl
      | ⟨1, _⟩ => rfl
    rw [hsi]
    rfl
  | ⟨1, _⟩ =>
    -- the column axis: an offset axis, its start 0, its offset the result's column
    show GatherDims.start _ (ix2 e c) idx 1 + GatherDims.batchCoord _ (ix2 e c) 1 + GatherDims.offCoord _ (ix2 e c) 1 = c.val
    rw [GatherDims.batchCoord_eq_zero _ _ _ List.not_mem_nil]
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (show (1 : Fin 2) ∉ [(0 : Fin 2)] by decide)]
    rw [hs]
    simp only [Nat.add_zero, Nat.zero_add]
    rfl

/-- THE VECTOR GATHER READ AT `e`: gathering elements of an `[N]` operand at a column `[E, 1]` of start indices gives,
    at `e`, the operand's element at start index `e`, read as a signed integer and clamped into `[0, N − 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[], [0], [], [], [0], 1, ![1], wf⟩ :
        GatherDims ⟨1, ![N]⟩ ⟨2, ![E, 1]⟩ ⟨1, ![E]⟩) (ix1 e) ⟨p, hp⟩ = ix2 e 0 := by
      intro p hp
      obtain rfl : p = 0 := by omega
      funext b; refine Fin.ext ?_
      match b with
      | ⟨0, _⟩ => rfl
      | ⟨1, _⟩ => rfl
    rw [hsi]
    rfl

end Gather

/-! ## The accumulating row scatter at an index -/

section Scatter

/-- The row scatter's dimension numbers — updates `[E, C]` whose column axis is the window, the operand's row axis
    inserted and named by the one scatter index component — with their conditions an arbitrary proof. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update's scatter index, read signed. -/
theorem rows_start0 (idx : IVec ⟨2, ![E, 1]⟩ w) (e : Fin E) (c : Fin C) :
    (rowsDims N E C wf).start (ix2 e c) idx 0 = (idx (ix2 e 0)).toInt := by
  unfold ScatterDims.start
  rw [dif_pos (List.mem_singleton.mpr rfl)]
  have hsi : ∀ (p : Nat) (hp : p < 1), (rowsDims N E C wf).siIdx (ix2 e c) ⟨p, hp⟩ = ix2 e 0 := by
    intro p hp
    obtain rfl : p = 0 := by omega
    funext b; refine Fin.ext ?_
    match b with
    | ⟨0, _⟩ => rfl
    | ⟨1, _⟩ => rfl
  rw [hsi]

/-- On the column axis the window starts at 0. -/
theorem rows_start1 (idx : IVec ⟨2, ![E, 1]⟩ w) (e : Fin E) (c : Fin C) :
    (rowsDims N E C wf).start (ix2 e c) idx 1 = 0 := by
  unfold ScatterDims.start; rw [dif_neg (show (1 : Fin 2) ∉ [(0 : Fin 2)] by decide)]

/-- The row axis is inserted: no window coordinate. -/
theorem rows_window0 (e : Fin E) (c : Fin C) : (rowsDims N E C wf).window (ix2 e c) 0 = 0 := by
  unfold ScatterDims.window
  have h0 : (0 : Fin 2) ∉ (List.finRange 2).filter (· ∉ [(0 : Fin 2)]) := by decide
  exact dif_neg h0

/-- The column axis's window coordinate is the update's column. -/
theorem rows_window1 (e : Fin E) (c : Fin C) : (rowsDims N E C wf).window (ix2 e c) 1 = c.val := rfl

/-- WHERE AN UPDATE LANDS, for those dimension numbers: update `(e, c)` lands on operand element `(n, c')` exactly when
    the columns agree and the update's scatter index, read signed, is `n`. -/
theorem rows_resultIdx (idx : IVec ⟨2, ![E, 1]⟩ w) (e : Fin E) (c c' : Fin C) (n : Fin N) :
    (rowsDims N E C wf).resultIdx? (ix2 e c) idx = some (ix2 n c') ↔
      (c = c' ∧ (idx (ix2 e 0)).toInt = (n.val : ℤ)) := by
  unfold ScatterDims.resultIdx?
  constructor
  · intro h
    split at h
    · rename_i hall
      have hf := Option.some.inj h
      have h0 : ((rowsDims N E C wf).start (ix2 e c) idx 0 + ((rowsDims N E C wf).window (ix2 e c) 0 : ℕ)).toNat = n.val :=
        congrArg Fin.val (congrFun hf 0)
      have h1 : ((rowsDims N E C wf).start (ix2 e c) idx 1 + ((rowsDims N E C wf).window (ix2 e c) 1 : ℕ)).toNat = c'.val :=
        congrArg Fin.val (congrFun hf 1)
      have hr0 := (hall 0).1
      rw [rows_start0, rows_window0] at h0 hr0
      rw [rows_start1, rows_window1] at h1
      exact ⟨Fin.ext (by omega), by omega⟩
    · cases h
  · rintro ⟨rfl, hq⟩
    have hall : ∀ a, 0 ≤ (rowsDims N E C wf).start (ix2 e c) idx a + ((rowsDims N E C wf).window (ix2 e c) a : ℕ) ∧
        (rowsDims N E C wf).start (ix2 e c) idx a + ((rowsDims N E C wf).window (ix2 e c) a : ℕ) <
          ((⟨2, ![N, C]⟩ : Shape).size a : ℕ) := by
      intro a
      match a with
      | ⟨0, _⟩ =>
        show 0 ≤ (rowsDims N E C wf).start (ix2 e c) idx 0 + ((rowsDims N E C wf).window (ix2 e c) 0 : ℕ) ∧
          (rowsDims N E C wf).start (ix2 e c) idx 0 + ((rowsDims N E C wf).window (ix2 e c) 0 : ℕ) < (N : ℤ)
        rw [rows_start0, rows_window0, hq]
        have := n.isLt
        constructor <;> omega
      | ⟨1, _⟩ =>
        show 0 ≤ (rowsDims N E C wf).start (ix2 e c) idx 1 + ((rowsDims N E C wf).window (ix2 e c) 1 : ℕ) ∧
          (rowsDims N E C wf).start (ix2 e c) idx 1 + ((rowsDims N E C wf).window (ix2 e c) 1 : ℕ) < (C : ℤ)
        rw [rows_start1, rows_window1]
        have := c.isLt
        constructor <;> omega
    rw [dif_pos hall]
    congr 1
    funext a
    refine Fin.ext ?_
    match a with
    | ⟨0, _⟩ =>
      show ((rowsDims N E C wf).start (ix2 e c) idx 0 + ((rowsDims N E C wf).window (ix2 e c) 0 : ℕ)).toNat = n.val
      rw [rows_start0, rows_window0, hq]
      omega
    | ⟨1, _⟩ =>
      show ((rowsDims N E C wf).start (ix2 e c) idx 1 + ((rowsDims N E C wf).window (ix2 e c) 1 : ℕ)).toNat = c.val
      rw [rows_start1, rows_window1]
      omega

omit wf in
/-- WHERE AN UPDATE LANDS in the accumulating row scatter: update `(e, c)` lands on operand element `(n, c')` exactly
    when the columns agree and the update's scatter index, read as a signed integer and NOT clamped, is `n`; an update
    whose index is negative or at least `N` lands nowhere. -/
theorem scatter_rows_resultIdx (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c c' : Fin C) (n : Fin N) :
    d.resultIdx? (ix2 e c) idx = some (ix2 n c') ↔ (c = c' ∧ (idx (ix2 e 0)).toInt = (n.val : ℤ)) := by
  obtain ⟨uw, iw, sd, iv, wf'⟩ := d
  simp only at h1 h2 h3 h4
  subst h1 h2 h3 h4
  exact rows_resultIdx wf' idx e c c' n

omit wf in
/-- THE ACCUMULATING ROW SCATTER READ AT `(n, c)`, over the extended reals: the operand's element plus the sum of
    column `c` of the update rows whose scatter index, read signed, is `n` — the segment sum of the updates over the
    rows sent to `n`. Rows with an out-of-range index contribute to no element. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) =
      x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun a _ => ?_
  have key : ∀ b : Fin C, (if d.resultIdx? (ix2 a b) idx = some (ix2 n c) then upd (ix2 a b) else 0) =
      if b = c then (if (idx (ix2 a 0)).toInt = (n.val : ℤ) then upd (ix2 a c) else 0) else 0 := by
    intro b
    by_cases hb : b = c
    · subst hb
      by_cases hq : (idx (ix2 a 0)).toInt = (n.val : ℤ)
      · rw [if_pos ((scatter_rows_resultIdx d h1 h2 h3 h4 idx a b b n).mpr ⟨rfl, hq⟩), if_pos rfl, if_pos hq]
      · rw [if_neg (fun h => hq ((scatter_rows_resultIdx d h1 h2 h3 h4 idx a b b n).mp h).2), if_pos rfl, if_neg hq]
    · rw [if_neg (fun h => hb ((scatter_rows_resultIdx d h1 h2 h3 h4 idx a b c n).mp h).1), if_neg hb]
  rw [Finset.sum_congr rfl (fun b _ => key b), Finset.sum_ite_eq' Finset.univ c, if_pos (Finset.mem_univ c)]

end Scatter

end Idealize.ShloMosaic.RowGatherScatter

end
-- ==== Proof.LibAggregateLinear.lean ====
/-
  General lemmas on the extended reals: a linear map commutes with a weighted
  aggregation when every entry is finite; finiteness of products and of a
  positive base raised to a negative real exponent; and the value of two
  32-bit float words.
-/
import Idealize.ShloMosaic.PureOps.Ideal

noncomputable section

namespace Idealize.ShloMosaic.AggregateLinear

open scoped BigOperators

/-- The coercion of the reals into the extended reals commutes with finite sums:
    the extended real of `∑ i ∈ s, f i` is `∑ i ∈ s, (f i : EReal)`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is the coercion of its real part. -/
theorem eq_coe_toReal {x : EReal} (h : x ≠ ⊤ ∧ x ≠ ⊥) : x = ((x.toReal : ℝ) : EReal) :=
  (EReal.coe_toReal h.1 h.2).symm

/-- The product of two finite extended reals is finite. -/
theorem mul_finite {a b : EReal} (ha : a ≠ ⊤ ∧ a ≠ ⊥) (hb : b ≠ ⊤ ∧ b ≠ ⊥) :
    a * b ≠ ⊤ ∧ a * b ≠ ⊥ := by
  rw [eq_coe_toReal ha, eq_coe_toReal hb, ← EReal.coe_mul]
  exact ⟨EReal.coe_ne_top _, EReal.coe_ne_bot _⟩

/-- A linear map commutes with a weighted aggregation, for finite entries:
    aggregating the images `∑ k, a e k * w k` of the rows `a e` with weights
    `n e` over `e ∈ S` gives the image of the aggregated row
    `k ↦ ∑ e ∈ S, a e k * n e`. Both sides are the double sum
    `∑ e ∈ S, ∑ k, a e k * w k * n e` over the reals. -/
theorem agg_linear {ι κ : Type*} [Fintype κ] (S : Finset ι)
    (a : ι → κ → EReal) (w : κ → EReal) (n : ι → EReal)
    (ha : ∀ e k, a e k ≠ ⊤ ∧ a e k ≠ ⊥) (hw : ∀ k, w k ≠ ⊤ ∧ w k ≠ ⊥)
    (hn : ∀ e, n e ≠ ⊤ ∧ n e ≠ ⊥) :
    ∑ e ∈ S, (∑ k, a e k * w k) * n e = ∑ k, (∑ e ∈ S, a e k * n e) * w k := by
  have hL : ∀ e, (∑ k, a e k * w k) * n e
      = (((∑ k, (a e k).toReal * (w k).toReal) * (n e).toReal : ℝ) : EReal) := by
    intro e
    rw [EReal.coe_mul, coe_sum, ← eq_coe_toReal (hn e)]
    congr 1
    refine Finset.sum_congr rfl fun k _ => ?_
    rw [EReal.coe_mul, ← eq_coe_toReal (ha e k), ← eq_coe_toReal (hw k)]
  have hR : ∀ k, (∑ e ∈ S, a e k * n e) * w k
      = (((∑ e ∈ S, (a e k).toReal * (n e).toReal) * (w k).toReal : ℝ) : EReal) := by
    intro k
    rw [EReal.coe_mul, coe_sum, ← eq_coe_toReal (hw k)]
    congr 1
    refine Finset.sum_congr rfl fun e _ => ?_
    rw [EReal.coe_mul, ← eq_coe_toReal (ha e k), ← eq_coe_toReal (hn e)]
  rw [Finset.sum_congr rfl fun e _ => hL e, Finset.sum_congr rfl fun k _ => hR k,
    ← coe_sum, ← coe_sum]
  congr 1
  simp only [Finset.sum_mul]
  rw [Finset.sum_comm]
  refine Finset.sum_congr rfl fun k _ => Finset.sum_congr rfl fun e _ => ?_
  ring

/-- The same law with the zero each sum starts from written out, as a program
    that accumulates from zero has it. -/
theorem agg_linear_zero {ι κ : Type*} [Fintype κ] (S : Finset ι)
    (a : ι → κ → EReal) (w : κ → EReal) (n : ι → EReal)
    (ha : ∀ e k, a e k ≠ ⊤ ∧ a e k ≠ ⊥) (hw : ∀ k, w k ≠ ⊤ ∧ w k ≠ ⊥)
    (hn : ∀ e, n e ≠ ⊤ ∧ n e ≠ ⊥) :
    (0 : EReal) + ∑ e ∈ S, (∑ k, a e k * w k) * n e
      = ∑ k, ((0 : EReal) + ∑ e ∈ S, a e k * n e) * w k := by
  simp only [zero_add]
  exact agg_linear S a w n ha hw hn

/-- A positive extended-real base raised to a negative real exponent is finite:
    a real base gives a real power, and `⊤` to a negative exponent is `0`. -/
theorem pow_finite {d : EReal} (hd : 0 < d) {y : ℝ} (hy : y < 0) :
    Ideal.pow d (y : EReal) ≠ ⊤ ∧ Ideal.pow d (y : EReal) ≠ ⊥ := by
  induction d using EReal.rec with
  | bot => exact absurd hd (by simp)
  | coe x =>
    rw [Ideal.pow_coe_coe]
    exact ⟨EReal.coe_ne_top _, EReal.coe_ne_bot _⟩
  | top =>
    have h1 : ¬ (0 : EReal) < (y : EReal) := by
      rw [not_lt]; exact_mod_cast hy.le
    have h2 : (y : EReal) ≠ 0 := by exact_mod_cast hy.ne
    rw [Ideal.pow_top, if_neg h1, if_neg h2]
    exact ⟨EReal.zero_ne_top, EReal.zero_ne_bot⟩

/-- The 32-bit float word `0xBF000000` (sign 1, exponent 126, fraction 0) is `-1/2`. -/
theorem ofBits_neg_half : Ideal.ofBits .f32 0xBF000000#32 = ((-(1 / 2) : ℝ) : EReal) := by
  simp [Ideal.ofBits, Ideal.ieee, -EReal.coe_mul]; norm_num

/-- The word `0xBF000000` is a negative real. -/
theorem ofBits_neg_half_neg :
    ∃ y : ℝ, y < 0 ∧ Ideal.ofBits .f32 0xBF000000#32 = (y : EReal) :=
  ⟨-(1 / 2), by norm_num, ofBits_neg_half⟩

/-- The all-zero 32-bit float word is `0`. -/
theorem ofBits_zero : Ideal.ofBits .f32 0x00000000#32 = 0 := by
  simp [Ideal.ofBits, Ideal.ieee]

end Idealize.ShloMosaic.AggregateLinear
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.GcnBridge.lean ====
/-
  The two results are one function.

  Read at node n and feature c, with S_n the set of edges e whose target index is n, src e the (clamped) source
  node of edge e and norm e its weight:
      kernel     :  0 + Σ_{e ∈ S_n} (Σ_k x (src e, k) · Wᵀ (k, c)) · norm e   + b c
      reference  :  Σ_k (0 + Σ_{e ∈ S_n} x (src e, k) · norm e) · Wᵀ (k, c)   + b c.
  These are equal when every x (·,·), Wᵀ (·,·) and norm e is a real number: a linear map commutes with a weighted
  sum. x and W are finite by the precondition. norm e = dis i · dis j for two nodes i, j, and dis i is finite for
  EVERY count deg i: where deg i > 0 it is deg i to the negative power −1/2 (a real for a real base, 0 for +∞), and
  elsewhere it is 0. On the extended reals the law needs this finiteness: with an infinite entry the two sides can
  differ (∞ − ∞ on one side only).
-/
import proofs.«158638_j39908836115041_2_alg».proof.Proof.GcnSpec
import proofs.«158638_j39908836115041_2_alg».proof.Proof.LibRowGatherScatter
import proofs.«158638_j39908836115041_2_alg».proof.Proof.LibAggregateLinear
import proofs.«158638_j39908836115041_2_alg».proof.Proof.LibPlainMatmul
import proofs.«158638_j39908836115041_2_alg».proof.Proof.LibColumnBroadcast
import Idealize.ShloMosaic.Lib.Pipeline.Value
import Idealize.ShloMosaic.Lib.ValueIdx
import Idealize.ShloMosaic.PureOps.Ideal.Laws

noncomputable section

namespace Cert.GcnSpec

open Idealize.ShloMosaic Idealize.ShloMosaic.ValueIdx
open Idealize.ShloMosaic.RowGatherScatter Idealize.ShloMosaic.AggregateLinear

/-! ## Small reads, stated over arbitrary arrays -/

/-- A scalar constant repeated over any shape reads the constant's value. -/
theorem splat_apply {t : Shape} (h : S0.BroadcastsInDim t (![] : Fin 0 → Fin t.rank)) (w : BitVec 32) (i : t.Idx) :
    broadcastInDim t ![] h (constant (F := Ideal) S0 .f32 w) i = Ideal.ofBits .f32 w := rfl

/-- The host's power, elementwise. -/
theorem powf_apply {s : Shape} (x y : FVec Ideal s .f32) (i : s.Idx) : Host.powf x y i = Ideal.pow (x i) (y i) := rfl

theorem zeroN_apply (i : SN.Idx) : zeroN i = 0 := by
  unfold zeroN
  rw [splat_apply, Ideal.ofBits_zero_f32]

theorem zeroNC_apply (i : SNC.Idx) : zeroNC i = 0 := by
  unfold zeroNC
  rw [splat_apply, Ideal.ofBits_zero_f32]

/-! ## The weights are real numbers -/

/-- For ANY extended real d: d to the power −1/2 where d > 0, and 0 elsewhere, is a real number. -/
theorem dis_scalar_finite (d : EReal) :
    Scalar.select (Ideal.cmp .ogt d 0) (Ideal.pow d (Ideal.ofBits .f32 0xBF000000#32)) (Ideal.ofBits .f32 0x00000000#32) ≠ ⊤
    ∧ Scalar.select (Ideal.cmp .ogt d 0) (Ideal.pow d (Ideal.ofBits .f32 0xBF000000#32)) (Ideal.ofBits .f32 0x00000000#32) ≠ ⊥ := by
  unfold Scalar.select
  split
  · rename_i h
    have hpos : 0 < d := by
      by_contra hn
      simp [Ideal.cmp, hn] at h
    rw [ofBits_neg_half]
    exact pow_finite hpos (by norm_num)
  · rw [Ideal.ofBits_zero_f32]
    exact ⟨EReal.zero_ne_top, EReal.zero_ne_bot⟩

/-- dis at a node, as a function of the node's count alone. -/
theorem dis_apply (a1 : IVec SI 32) (i : SN.Idx) :
    dis a1 i = Scalar.select (Ideal.cmp .ogt (deg a1 i) 0) (Ideal.pow (deg a1 i) (Ideal.ofBits .f32 0xBF000000#32))
      (Ideal.ofBits .f32 0x00000000#32) := by
  unfold dis
  rw [select_apply, cmpf_apply, Ideal.cmpf_def, zeroN_apply, powf_apply, splat_apply, splat_apply]

/-- dis i is a real number, whatever the count deg i is. -/
theorem dis_finite (a1 : IVec SI 32) (i : SN.Idx) : dis a1 i ≠ ⊤ ∧ dis a1 i ≠ ⊥ := by
  rw [dis_apply]
  exact dis_scalar_finite _

/-- The node a start index names for a gather: read signed, clamped into [0, N − 1]. -/
def nodeOf (v : IVec SE1 32) (e : Fin 800000) : Fin 50000 :=
  ⟨min (v (ix2 e 0)).toInt.toNat (50000 - 1), by omega⟩

/-- A per-node value read at an edge's node. -/
theorem gather_node {α : Type} (x : SN.Idx → α) (v : IVec SE1 32) (e : Fin 800000) :
    Host.gather gaVec x v (ix1 e) = x (ix1 (nodeOf v e)) :=
  gather_vec_apply (by norm_num) gaVec rfl rfl rfl rfl rfl rfl rfl x v e

/-- A node's feature row read at an edge's node. -/
theorem gather_node_row {α : Type} (x : SNC.Idx → α) (v : IVec SE1 32) (e : Fin 800000) (c : Fin 128) :
    Host.gather gaRow x v (ix2 e c) = x (ix2 (nodeOf v e) c) :=
  gather_rows_apply (by norm_num) gaRow rfl rfl rfl rfl rfl rfl rfl x v e c

/-- norm e is a real number: the product of dis at the edge's two (clamped) nodes. -/
theorem norm_finite (a1 : IVec SI 32) (e : Fin 800000) : norm a1 (ix1 e) ≠ ⊤ ∧ norm a1 (ix1 e) ≠ ⊥ := by
  unfold norm
  rw [mulf_apply, gather_node, gather_node]
  exact mul_finite (dis_finite a1 _) (dis_finite a1 _)

/-- The weight repeated along the features reads the weight. -/
theorem normB_apply (a1 : IVec SI 32) (e : Fin 800000) (c : Fin 128) : normB a1 (ix2 e c) = norm a1 (ix1 e) :=
  Cert.Lib.broadcastInDim_column_apply (norm a1) bc_E_E1 bc_E1_EC e c

/-- Every entry of Wᵀ is an entry of W. -/
theorem Wt_finite (a2 : FVec Ideal SCC .f32) (h2 : ∀ i, a2 i ≠ ⊤ ∧ a2 i ≠ ⊥) (j : SCC.Idx) : Wt a2 j ≠ ⊤ ∧ Wt a2 j ≠ ⊥ := by
  unfold Wt transpose
  exact h2 _

/-! ## The aggregation at an index -/

/-- The edges whose target index is n. -/
def edgesTo (a1 : IVec SI 32) (n : Fin 50000) : Finset (Fin 800000) :=
  Finset.univ.filter (fun e : Fin 800000 => (col1 (rowV a1) (ix2 e 0)).toInt = (n.val : ℤ))

/-- The (clamped) source node of edge e. -/
def srcOf (a1 : IVec SI 32) (e : Fin 800000) : Fin 50000 := nodeOf (col1 (wrap (colV a1))) e

/-- The aggregation at node n and feature c: from zero, the sum over the edges whose target index is n of the source
    node's entry times the edge's weight. -/
theorem agg_apply (t : FVec Ideal SNC .f32) (a1 : IVec SI 32) (n : Fin 50000) (c : Fin 128) :
    agg t a1 (ix2 n c) = 0 + ∑ e ∈ edgesTo a1 n, t (ix2 (srcOf a1 e) c) * norm a1 (ix1 e) := by
  unfold agg
  rw [scatterAdd_rows_apply scRow rfl rfl rfl rfl, zeroNC_apply]
  refine congrArg (fun s => (0 : EReal) + s) (Finset.sum_congr rfl fun e _ => ?_)
  rw [mulf_apply, gather_node_row, normB_apply]
  rfl

/-! ## The law, over abstract data -/

/-- Aggregating the projected rows is projecting the aggregated row: for any set S of edges, any source map and any
    real weights, with real features and a real matrix. -/
theorem agg_proj_core (S : Finset (Fin 800000)) (src : Fin 800000 → Fin 50000) (nrm : Fin 800000 → EReal)
    (x : SNC.Idx → EReal) (w : SCC.Idx → EReal) (c : Fin 128)
    (hx : ∀ i, x i ≠ ⊤ ∧ x i ≠ ⊥) (hw : ∀ j, w j ≠ ⊤ ∧ w j ≠ ⊥) (hn : ∀ e, nrm e ≠ ⊤ ∧ nrm e ≠ ⊥) :
    (0 : EReal) + ∑ e ∈ S, (∑ k : Fin 128, x (ix2 (src e) k) * w (ix2 k c)) * nrm e
      = ∑ k : Fin 128, ((0 : EReal) + ∑ e ∈ S, x (ix2 (src e) k) * nrm e) * w (ix2 k c) :=
  agg_linear_zero S (fun e k => x (ix2 (src e) k)) (fun k => w (ix2 k c)) nrm (fun e k => hx _) (fun k => hw _) hn

/-- THE BRIDGE: for finite x and W, aggregating the projected features is projecting the aggregated features. -/
theorem bridge (a0 : FVec Ideal SNC .f32) (a1 : IVec SI 32) (a2 : FVec Ideal SCC .f32) (a3 : FVec Ideal SC .f32)
    (h0 : ∀ i, a0 i ≠ ⊤ ∧ a0 i ≠ ⊥) (h2 : ∀ i, a2 i ≠ ⊤ ∧ a2 i ≠ ⊥) (xw : FVec Ideal SNC .f32)
    (hxw : ∀ (r : Fin 50000) (c : Fin 128), xw (ix2 r c) = ∑ k : Fin 128, a0 (ix2 r k) * Wt a2 (ix2 k c)) :
    kernelRes xw a1 a3 = refRes a0 a1 a2 a3 := by
  funext i
  obtain ⟨n, c, rfl⟩ : ∃ (n : Fin 50000) (c : Fin 128), i = ix2 n c := ⟨i 0, i 1, eq_ix2 i⟩
  unfold kernelRes refRes
  rw [addf_apply, addf_apply]
  refine congrArg (fun s => s + biasB a3 (ix2 n c)) ?_
  unfold Host.dotGeneral
  rw [show dotNC = DotDims.plain 50000 128 128 from rfl, PlainMatmul.plain_dotGeneral_apply]
  simp only [agg_apply, hxw]
  exact agg_proj_core (edgesTo a1 n) (srcOf a1) (fun e => norm a1 (ix1 e)) a0 (Wt a2) c h0 (Wt_finite a2 h2)
    (fun e => norm_finite a1 e)

end Cert.GcnSpec

end
-- ==== Proof.FiniteInputs.lean ====
/-
  The precondition, read back: every entry of x and of W is a real number.

  The precondition is the conjunction of three `all`s: |x| < +∞ everywhere, |W| < +∞ everywhere, |b| < +∞ everywhere,
  each a reduction by `and` from 1 over all axes. A conjunction that is 1 has both conjuncts 1; an `all` that is 1
  has every element 1; and |v| < +∞ on the extended reals (|v| = max v (−v), the word 0x7F800000 being +∞) says that
  v is neither +∞ nor −∞.
-/
import proofs.«158638_j39908836115041_2_alg».proof.Pre_finite_inputs
import proofs.«158638_j39908836115041_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- The float word 0x7F800000 is +∞. -/
theorem ofBits_inf : Ideal.ofBits .f32 0x7F800000#32 = ⊤ := by simp [Ideal.ofBits, Ideal.ieee]

/-- |v| < +∞ says v is finite. -/
theorem finite_of_abs_lt (v : EReal) (h : Ideal.cmp .olt (max v (-v)) (Ideal.ofBits .f32 0x7F800000#32) = 1#1) :
    v ≠ ⊤ ∧ v ≠ ⊥ := by
  rw [ofBits_inf] at h
  induction v using EReal.rec with
  | bot => simp [Ideal.cmp] at h
  | coe r => exact ⟨EReal.coe_ne_top r, EReal.coe_ne_bot r⟩
  | top => simp [Ideal.cmp] at h

/-- Under the precondition every entry of the first argument (x) and of the third (W) is finite. -/
theorem finite_of_pre (a0 : FVec Ideal S50000x128 .f32) (a1 : IVec S2x800000 32) (a2 : FVec Ideal S128x128 .f32)
    (a3 : FVec Ideal S128 .f32) (h : Cert.Pre_finite_inputs.fn (F := Ideal) a0 a1 a2 a3 = fun _ => 1#1) :
    (∀ i, a0 i ≠ ⊤ ∧ a0 i ≠ ⊥) ∧ (∀ i, a2 i ≠ ⊤ ∧ a2 i ≠ ⊥) := by
  have h0 := congrFun h ix0
  have h1 : IntOp.andi (IntOp.andi _ _) _ = 1#1 := h0
  obtain ⟨h01, -⟩ := IntOp.andi_eq_one.mp h1
  obtain ⟨hx, hw⟩ := IntOp.andi_eq_one.mp h01
  refine ⟨fun i => ?_, fun i => ?_⟩
  · exact finite_of_abs_lt (a0 i) (Host.reduce_andi_all _ _ _ _ ix0 hx i)
  · exact finite_of_abs_lt (a2 i) (Host.reduce_andi_all _ _ _ _ ix0 hw i)

end Cert.FiniteInputs

end
-- ==== Proof.lean ====
/-
  A graph-convolution layer, kernel against reference, over the extended reals.

  Both programs compute, for N = 50000 nodes with C = 128 features and E = 800000 edges (row e, col e),
      out (n, c) = Σ over the edges e with row e = n of  norm e · (x · Wᵀ) (col e, c)   + b c,
  with norm e = dis (row e) · dis (col e) and dis i = deg i ^ (−1/2) where the count deg i of edges into i is positive,
  0 elsewhere. The reference gathers the rows of x at the edges' source nodes, scales them by norm, adds them up at
  the target nodes and multiplies the result by Wᵀ. The kernel multiplies x by Wᵀ FIRST, in one pipelined region of
  5 grid points of 10000 rows each, and then gathers, scales and adds up the rows of the product on the host.

  The two agree because a linear map commutes with a weighted sum — for finite entries. x and W are finite by the
  precondition; norm is finite for every edge list whatever (GcnBridge.lean). Out-of-range edge indices are treated the
  same way by both programs (a gather clamps, a scatter drops), being the same operations on the same index arrays,
  so no assumption on the edge list is needed.

  The pieces: GcnSpec.lean states both results as whole-array terms over one vocabulary; KernelArray.lean and
  KernelTail.lean read the kernel's run as `kernelRes` of the projected features; RefOps.lean and RefRun.lean read the
  reference's run as `refRes`; GcnBridge.lean proves the two terms equal; FiniteInputs.lean reads the precondition.
  The word-level kernel differs from the idealized one by no rewrite, so that conjunct is trivial.
-/
import proofs.«158638_j39908836115041_2_alg».proof.Defs
import proofs.«158638_j39908836115041_2_alg».proof.Proof.Gen.Kernel
import proofs.«158638_j39908836115041_2_alg».proof.Proof.Gen.Kernel.Skeleton
import proofs.«158638_j39908836115041_2_alg».proof.Proof.Gen.Kernel.Launch
import proofs.«158638_j39908836115041_2_alg».proof.Proof.Gen.Kernel.Points
import proofs.«158638_j39908836115041_2_alg».proof.Proof.Gen.Kernel.Frame
import proofs.«158638_j39908836115041_2_alg».proof.Proof.Gen.KernelIdeal
import proofs.«158638_j39908836115041_2_alg».proof.Proof.Gen.KernelIdeal.Skeleton
import proofs.«158638_j39908836115041_2_alg».proof.Proof.Gen.KernelIdeal.Launch
import proofs.«158638_j39908836115041_2_alg».proof.Proof.Gen.KernelIdeal.Points
import proofs.«158638_j39908836115041_2_alg».proof.Proof.Gen.KernelIdeal.Frame
import proofs.«158638_j39908836115041_2_alg».proof.Proof.Gen.ReferenceIdeal
import proofs.«158638_j39908836115041_2_alg».proof.Proof.Gen.Pre_finite_inputs
import proofs.«158638_j39908836115041_2_alg».proof.Proof.KernelTail
import proofs.«158638_j39908836115041_2_alg».proof.Proof.RefRun
import proofs.«158638_j39908836115041_2_alg».proof.Proof.GcnBridge
import proofs.«158638_j39908836115041_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments, x and W finite: the kernel ends at `kernelRes` of x · Wᵀ, the reference
    at `refRes`, and the two are equal. -/
theorem algebraic : Cert.algebraic_KernelIdeal_ReferenceIdeal := by
  intro m ρ m' ρ' hpre hagree
  refine ⟨_, Cert.KernelIdeal.Projected.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨hx, hw⟩ := Cert.FiniteInputs.finite_of_pre _ _ _ _ (hpre c)
  exact (Cert.GcnSpec.bridge _ _ _ _ hx hw _ (fun r q => Cert.KernelIdeal.Projected.proj_apply _ _ r q)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
